-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x1024 : Shape := ⟨2, ![1024, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x4096x1024 .f32) (main_arg1 : FVec F S1024x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16x4096x1024 : Shape := ⟨3, ![16, 4096, 1024]⟩
abbrev S1024x1024 : Shape := ⟨2, ![1024, 1024]⟩
abbrev S65536x1024 : Shape := ⟨2, ![65536, 1024]⟩
abbrev S_ : Shape := ⟨0, ![]⟩

abbrev nBuf : Space → Nat
  | .hbm => 11
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S65536x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S65536x1024, .f32⟩
  | .hbm, ⟨10, _⟩ => ⟨S16x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x1024_S65536x1024 : S16x4096x1024.ShapeCasts S65536x1024
  transposes_S1024x1024_S1024x1024_1_0 : S1024x1024.Transposes [1, 0] S1024x1024
  bcast_S_S1024x1024 : S_.BroadcastsInDim S1024x1024 (![] : Fin 0 → Fin S1024x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S65536x1024_S16x4096x1024 : S65536x1024.ShapeCasts S16x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16x4096x1024, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  dot_S16x4096x1024_S1024x1024_S16x4096x1024_2_1_01_0_n_n_wf : DotDims.WF S16x4096x1024 S1024x1024 S16x4096x1024 [2] [1] [0, 1] [0] [] []
  dot_S16x4096x1024_S1024x1024_S16x4096x1024_2_0_01_1_n_n_wf : DotDims.WF S16x4096x1024 S1024x1024 S16x4096x1024 [2] [0] [0, 1] [1] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x4096x1024_S1024x1024_S16x4096x1024_2_0_01_1_n_n : DotDims S16x4096x1024 S1024x1024 S16x4096x1024 where
  lhsContracting := [2]
  rhsContracting := [0]
  lhsNonContracting := [0, 1]
  rhsNonContracting := [1]
  lhsBatch := []
  rhsBatch := []
  wf := dot_S16x4096x1024_S1024x1024_S16x4096x1024_2_0_01_1_n_n_wf

class Facts : Prop extends Facts₀ where

variable [Facts]
-- ==== Proof.Scale.lean ====
/-
  The scale factor. The kernel multiplies by the f32 word of 0.03125; the reference divides 1 by the square root of
  1024. On the extended reals the square root of 1024 is 32, so both factors are the real number 1/32.
-/
import Idealize.ShloMosaic.PureOps.Ideal
import Idealize.ShloMosaic.PureOps.Ideal.Laws

noncomputable section

namespace Cert.LabelAttn

open Idealize.ShloMosaic

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

/-- 1024 = 32², so its square root on the extended reals is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- The reference's factor `1 / sqrt 1024` is the kernel's word `0.03125`: both are 1/32. -/
theorem one_div_sqrt_1024 :
    Ideal.div (Ideal.ofBits .f32 0x3F800000#32) (Ideal.sqrt (Ideal.ofBits .f32 0x44800000#32))
      = Ideal.ofBits .f32 0x3D000000#32 := by
  rw [ofBits_1024, sqrt_1024, ofBits_one, ofBits_inv32, Ideal.div_coe (by norm_num : (32 : ℝ) ≠ 0), ← EReal.coe_mul]
  congr 1
  norm_num

end Cert.LabelAttn

end
-- ==== Proof.Reassoc.lean ====
/-
  The one law that joins the two programs. For real numbers
      ∑ d, x d * ((∑ u, a u d * b u) * s)  =  ∑ u, ((∑ d, x d * a u d) * s) * b u :
  both are the double sum of x d * a u d * b u * s, taken in the two orders. It moves factors across sums, which is
  false at the infinities, so it is stated for extended reals that are images of real numbers.
-/
import Mathlib.Data.EReal.Operations
import Mathlib.Algebra.BigOperators.Ring.Finset
import Mathlib.Algebra.BigOperators.Group.Finset.Sigma
import Mathlib.Tactic.Ring

noncomputable section

namespace Cert.LabelAttn

/-- A finite sum of images of reals is the image of the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law on the reals: the double sum taken in either order. -/
theorem reassoc_real {ι κ : Type*} [Fintype ι] [Fintype κ] (x : ι → ℝ) (a : κ → ι → ℝ) (b : κ → ℝ) (s : ℝ) :
    ∑ d, x d * ((∑ u, a u d * b u) * s) = ∑ u, ((∑ d, x d * a u d) * s) * b u := by
  simp only [Finset.sum_mul, Finset.mul_sum]
  rw [Finset.sum_comm]
  refine Finset.sum_congr rfl fun u _ => Finset.sum_congr rfl fun d _ => ?_
  ring

/-- The law on extended reals that are images of reals. -/
theorem reassoc {ι κ : Type*} [Fintype ι] [Fintype κ] (x : ι → ℝ) (a : κ → ι → ℝ) (b : κ → ℝ) (s : ℝ) :
    ∑ d, (x d : EReal) * ((∑ u, (a u d : EReal) * (b u : EReal)) * (s : EReal))
      = ∑ u, ((∑ d, (x d : EReal) * (a u d : EReal)) * (s : EReal)) * (b u : EReal) := by
  simp only [← EReal.coe_mul, coe_sum]
  exact congrArg _ (reassoc_real x a b s)

end Cert.LabelAttn

end
-- ==== Proof.Spec.lean ====
/-
  The two programs as functions of the argument arrays `x : [16, 4096, 1024]` and `a : [1024, 1024]`, index by index,
  with the scale `s` a parameter.

  The kernel first forms the collapsed weight `w (k, j) = (∑ u, a (u, k) * a (u, j)) * s` and then one product,
  `out (b, t, j) = ∑ k, x (b, t, k) * w (k, j)`. The reference forms the scaled scores
  `(∑ k, x (b, t, k) * a (u, k)) * s` and multiplies them back with `a`:
  `out (b, t, j) = ∑ u, ((∑ k, x (b, t, k) * a (u, k)) * s) * a (u, j)`. For real entries the two are the double sum of
  `x (b, t, k) * a (u, k) * a (u, j) * s` in its two orders.
-/
import Idealize.ShloMosaic.Lib.ValueIdx
import proofs.«167783_j32384053412296_2_alg».proof.Proof.Reassoc

noncomputable section

namespace Cert.LabelAttn

open Idealize.ShloMosaic Idealize.ShloMosaic.ValueIdx

/-- The collapsed weight: entry (k, j) is the scaled inner product of columns k and j of `a`. -/
def weight (a : (⟨2, ![1024, 1024]⟩ : Shape).Idx → EReal) (s : EReal) : (⟨2, ![1024, 1024]⟩ : Shape).Idx → EReal :=
  fun i => (∑ u : Fin 1024, a (ix2 u (i 0)) * a (ix2 u (i 1))) * s

/-- The kernel's result: each row of `x` times the collapsed weight. -/
def collapsed (x : (⟨3, ![16, 4096, 1024]⟩ : Shape).Idx → EReal) (a : (⟨2, ![1024, 1024]⟩ : Shape).Idx → EReal) (s : EReal) :
    (⟨3, ![16, 4096, 1024]⟩ : Shape).Idx → EReal :=
  fun i => ∑ k : Fin 1024, x (ix3 (i 0) (i 1) k) * weight a s (ix2 k (i 2))

/-- The reference's result: the scaled scores of a row against every row of `a`, multiplied back with `a`. -/
def twoStep (x : (⟨3, ![16, 4096, 1024]⟩ : Shape).Idx → EReal) (a : (⟨2, ![1024, 1024]⟩ : Shape).Idx → EReal) (s : EReal) :
    (⟨3, ![16, 4096, 1024]⟩ : Shape).Idx → EReal :=
  fun i => ∑ u : Fin 1024, ((∑ k : Fin 1024, x (ix3 (i 0) (i 1) k) * a (ix2 u k)) * s) * a (ix2 u (i 2))

/-- On arrays of real numbers, with a real scale, the two results are equal. -/
theorem collapsed_eq_twoStep (x : (⟨3, ![16, 4096, 1024]⟩ : Shape).Idx → EReal) (a : (⟨2, ![1024, 1024]⟩ : Shape).Idx → EReal)
    (hx : ∀ i, ∃ r : ℝ, x i = r) (ha : ∀ i, ∃ r : ℝ, a i = r) (s : ℝ) :
    collapsed x a (s : EReal) = twoStep x a (s : EReal) := by
  choose xr hxr using hx
  choose ar har using ha
  funext i
  unfold collapsed twoStep weight
  simp only [hxr, har]
  exact reassoc (fun k => xr (ix3 (i 0) (i 1) k)) (fun u k => ar (ix2 u k)) (fun u => ar (ix2 u (i 2))) s

end Cert.LabelAttn

end
-- ==== Proof.FiniteInputs.lean ====
/-
  What the precondition gives. It says that every entry of both argument arrays has absolute value below +∞. On the
  extended reals that excludes exactly the two infinities, so every entry is the image of a real number: the form in
  which the sums of the two programs can be rearranged.
-/
import proofs.«167783_j32384053412296_2_alg».proof.Proof.Gen.Pre_finite_inputs
import Idealize.ShloMosaic.Lib.ReduceAll
import Idealize.ShloMosaic.Lib.ValueIdx
import Idealize.ShloMosaic.PureOps.Ideal

noncomputable section

namespace Cert.LabelAttn

open Idealize.ShloMosaic Cert.Pre_finite_inputs

/-- The word `0x7F800000` denotes +∞. -/
theorem ofBits_inf : Ideal.ofBits .f32 0x7F800000#32 = ⊤ := by
  simp [Ideal.ofBits, Ideal.ieee]

/-- An extended real with `|v| < +∞` is a real number. -/
theorem real_of_abs_lt_inf (v : EReal)
    (h : Ideal.cmp .olt (max v (-v)) (Ideal.ofBits .f32 0x7F800000#32) = 1#1) : ∃ r : ℝ, v = r := by
  rw [ofBits_inf] at h
  induction v using EReal.rec with
  | bot => exact absurd h (by simp [Ideal.cmp])
  | coe r => exact ⟨r, rfl⟩
  | top => exact absurd h (by simp [Ideal.cmp])

/-- The scalar result of a full reduction has one index. -/
instance : Subsingleton S_.Idx := ⟨fun a b => funext fun d => d.elim0⟩

/-- Under the precondition every entry of both argument arrays is a real number. -/
theorem real_of_pre (x : FVec Ideal S16x4096x1024 .f32) (a : FVec Ideal S1024x1024 .f32)
    (h : Cert.Pre_finite_inputs.fn (F := Ideal) x a = fun _ => 1#1) :
    (∀ i, ∃ r : ℝ, x i = r) ∧ (∀ i, ∃ r : ℝ, a i = r) := by
  have h0 := congrFun h ValueIdx.ix0
  dsimp only [Cert.Pre_finite_inputs.fn] at h0
  obtain ⟨hx, ha⟩ := IntOp.andi_eq_one.mp h0
  exact ⟨fun i => real_of_abs_lt_inf (x i) (Host.reduce_andi_all _ _ _ _ ValueIdx.ix0 hx i),
    fun i => real_of_abs_lt_inf (a i) (Host.reduce_andi_all _ _ _ _ ValueIdx.ix0 ha i)⟩

end Cert.LabelAttn

end
-- ==== Proof.RefRead.lean ====
/-
  The reference, read index by index: its two `dot_general`s are sums over the contracted axis, the scalar
  `1 / sqrt 1024` broadcast over the scores is the number 1/32, and what comes out is the two-step formula.
-/
import proofs.«167783_j32384053412296_2_alg».proof.Proof.Gen.ReferenceIdeal.Read
import proofs.«167783_j32384053412296_2_alg».proof.Proof.Spec
import proofs.«167783_j32384053412296_2_alg».proof.Proof.Scale

noncomputable section

namespace Cert.ReferenceIdeal.TwoStep

open Cert.ReferenceIdeal Cert.ReferenceIdeal.Gen Idealize.ShloMosaic Idealize.ShloMosaic.ValueIdx Cert.LabelAttn

/-- The reference's result is the two-step formula at the scale `0.03125`. -/
theorem result_eq (x : (⟨S16x4096x1024, .f32⟩ : BufTy).Contents (Elt Ideal)) (a : (⟨S1024x1024, .f32⟩ : BufTy).Contents (Elt Ideal)) :
    Read.val_main_v5 (F := Ideal) x a = twoStep x a (Ideal.ofBits .f32 0x3D000000#32) := by
  funext i
  rw [Read.val_main_v5_apply]
  unfold twoStep
  refine Finset.sum_congr rfl fun u _ => ?_
  rw [Read.val_main_v4_apply, Read.val_main_v2_apply, Read.val_main_v3_apply]
  have e1 : ∀ k : Fin 1024, Read.lidx_main_v2 (Read.lidx_main_v5 i u) k = ix3 (i 0) (i 1) k := fun k =>
    funext fun d => by match d with | ⟨0, _⟩ => rfl | ⟨1, _⟩ => rfl | ⟨2, _⟩ => rfl
  have e2 : ∀ k : Fin 1024, Read.ridx_main_v2 (Read.lidx_main_v5 i u) k = ix2 u k := fun k =>
    funext fun d => by match d with | ⟨0, _⟩ => rfl | ⟨1, _⟩ => rfl
  have e3 : Read.ridx_main_v5 i u = ix2 u (i 2) :=
    funext fun d => by match d with | ⟨0, _⟩ => rfl | ⟨1, _⟩ => rfl
  rw [e3, Finset.sum_congr rfl (fun k _ => congrArg₂ (· * ·) (congrArg x (e1 k)) (congrArg a (e2 k)))]
  show (∑ k : Fin 1024, x (ix3 (i 0) (i 1) k) * a (ix2 u k))
      * Ideal.div (Ideal.ofBits .f32 0x3F800000#32) (Ideal.sqrt (Ideal.ofBits .f32 0x44800000#32)) * a (ix2 u (i 2)) = _
  rw [one_div_sqrt_1024]

end Cert.ReferenceIdeal.TwoStep

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KernelArrays.lean ====
/-
  The kernel's pieces, index by index.

  The body of the region takes a block of 1024 rows of the flattened input and the whole collapsed weight and stores
  their matrix product: entry (p, q) of what it stores is `∑ k, rows (p, k) * w (k, q)`; the change of format of the
  rows is the identity on the extended reals.

  The two arrays the region is started on are written by the host lines before it. The flattened input is the
  argument `x` reshaped from [16, 4096, 1024] to [65536, 1024]: row `b * 4096 + t` is row (b, t) of `x`. The weight is
  `(aᵀ · a) * 0.03125` (then a change of format): entry (k, q) is `(∑ u, a (u, k) * a (u, q)) * 0.03125`.
-/
import proofs.«167783_j32384053412296_2_alg».proof.Proof.Gen.KernelIdeal.Frame
import proofs.«167783_j32384053412296_2_alg».proof.Proof.LibDense
import proofs.«167783_j32384053412296_2_alg».proof.Proof.Spec
import Idealize.ShloMosaic.Lib.Pipeline.Value
import Idealize.ShloMosaic.Lib.ValueIdx
import Idealize.ShloMosaic.Lib.StableHlo.Run

noncomputable section

namespace Cert.KernelIdeal.Collapse

open Cert.KernelIdeal Cert.KernelIdeal.Gen Idealize.ShloMosaic Idealize.ShloMosaic.TcCoe Idealize.SL.Sem
open Idealize.ShloMosaic.ValueIdx Cert.LabelAttn

/-- What the body stores, at an entry: the row-by-column sum of its two loaded blocks. -/
theorem stored_apply (rows : Vec Ideal S1024x1024 .f32) (w : Vec Ideal S1024x1024 .bf16) (j : S1024x1024.Idx) :
    k0_pay1 (F := Ideal) rows w j = LibDense.prod rows w j := by
  unfold k0_pay1
  rw [shapeCast_self, shapeCast_self]
  exact LibDense.matmul_plain (M := 1024) (K := 1024) (N := 1024) (φ₁ := .bf16) (φ₂ := .bf16) rows w j

variable (m : (ℓ : Loc nD τ sig) → Buf (Elt Ideal) ℓ)

/-- The flattened input as the region finds it. -/
theorem flat_eq (c : Dev nD) :
    (V m c main_v0 : S65536x1024.Idx → EReal)
      = shapeCast S65536x1024 (m ((c : Thread nD τ).loc main_arg0)) Facts₀.shapeCasts_S16x4096x1024_S65536x1024 := by
  show StableHlo.after hostOps0 (fun b => m (c, b)) (Proc.devRef .tc main_v0) = _
  after_results
  rfl

/-- A [16, 4096, 1024] array reshaped to [65536, 1024]: row `b * 4096 + t` of the result is row (b, t) of the operand. -/
theorem reshape_row {α : Type} (X : (⟨3, ![16, 4096, 1024]⟩ : Shape).Idx → α)
    (h : (⟨3, ![16, 4096, 1024]⟩ : Shape).ShapeCasts ⟨2, ![65536, 1024]⟩)
    (b : Fin 16) (t : Fin 4096) (k : Fin 1024) (r : Fin 65536) (hr : r.val = b.val * 4096 + t.val) :
    shapeCast ⟨2, ![65536, 1024]⟩ X h (ix2 r k) = X (ix3 b t k) := by
  refine shapeCast_apply _ _ _ _ ?_
  rw [Shape.rowMajor_val_three, Shape.rowMajor_val_two]
  show (b.val * 4096 + t.val) * 1024 + k.val = r.val * 1024 + k.val
  rw [hr]

/-- Row `b * 4096 + t` of the flattened input is row (b, t) of the argument. -/
theorem flat_apply (c : Dev nD) (b : Fin 16) (t : Fin 4096) (k : Fin 1024) (r : Fin 65536) (hr : r.val = b.val * 4096 + t.val) :
    (V m c main_v0 : S65536x1024.Idx → EReal) (ix2 r k) = m ((c : Thread nD τ).loc main_arg0) (ix3 b t k) := by
  rw [flat_eq]
  exact reshape_row _ _ b t k r hr

/-- The collapsed weight as the region finds it. -/
theorem weight_eq (c : Dev nD) :
    (V m c main_v5 : S1024x1024.Idx → EReal)
      = truncf .bf16 (mulf (Host.dotGeneral (F := Ideal) (φ₁ := .f32) (φ₂ := .f32) dot_S1024x1024_S1024x1024_S1024x1024_1_0_0_1_n_n none
            (transpose S1024x1024 [1, 0] (m ((c : Thread nD τ).loc main_arg1) : FVec Ideal S1024x1024 .f32) Facts₀.transposes_S1024x1024_S1024x1024_1_0)
            (m ((c : Thread nD τ).loc main_arg1) : FVec Ideal S1024x1024 .f32))
          (broadcastInDim S1024x1024 ![] Facts₀.bcast_S_S1024x1024 (constant (F := Ideal) S_ .f32 0x3D000000#32))) Facts₀.bitsLt_bf16_f32 := by
  show StableHlo.after hostOps0 (fun b => m (c, b)) (Proc.devRef .tc main_v5) = _
  after_results
  try rfl

/-- Entry (k, q) of the weight is the scaled inner product of columns k and q of the argument `a`. -/
theorem weight_apply (c : Dev nD) (j : S1024x1024.Idx) :
    (V m c main_v5 : S1024x1024.Idx → EReal) j
      = weight (m ((c : Thread nD τ).loc main_arg1)) (Ideal.ofBits .f32 0x3D000000#32) j := by
  rw [weight_eq]
  show FloatOps.dotGeneral (F := Ideal) (DotDims.plain 1024 1024 1024) none _ _ _ j * Ideal.ofBits .f32 0x3D000000#32 = _
  rw [LibDense.dotGeneral_plain]
  unfold LibDense.prod weight
  refine congrArg (· * _) (Finset.sum_congr rfl fun u _ => congrArg (· * _) ?_)
  exact transpose_apply _ _ _ _ _ fun d => by match d with | ⟨0, _⟩ => rfl | ⟨1, _⟩ => rfl

end Cert.KernelIdeal.Collapse

end
-- ==== Proof.KernelValue.lean ====
/-
  The kernel's result as one function of the argument arrays.

  The grid has 64 points; point `t` is started on rows `1024 t … 1024 t + 1023` of the flattened input and on the whole
  weight, and writes back rows `1024 t … 1024 t + 1023` of the product. So the product array after the region is, at
  every entry (r, q), `∑ k, flat (r, k) * w (k, q)`: every row lies in exactly the block of the point `r / 1024`. The
  host line after the region reshapes [65536, 1024] back to [16, 4096, 1024], and with the two arrays read back to the
  arguments the result is the collapsed formula.
-/
import proofs.«167783_j32384053412296_2_alg».proof.Proof.KernelArrays

set_option maxRecDepth 16384

noncomputable section

namespace Cert.KernelIdeal.Collapse

open Cert.KernelIdeal Cert.KernelIdeal.Gen Idealize.ShloMosaic Idealize.ShloMosaic.TcCoe Idealize.SL.Sem
open Idealize.ShloMosaic.ValueIdx Cert.LabelAttn
open Idealize.ShloMosaic.Pipeline (Dat)

variable (m : (ℓ : Loc nD τ sig) → Buf (Elt Ideal) ℓ) (ρ : Dev nD → PrngReg)

/-- The product of the flattened input and the weight, as the region finds them. -/
def product (c : Dev nD) : S65536x1024.Idx → EReal :=
  LibDense.prod (n := 65536) (K := 1024) (d := 1024) (V m c main_v0 : S65536x1024.Idx → EReal) (V m c main_v5 : S1024x1024.Idx → EReal)

theorem zero_offset : (![0, 0] : Fin 2 → Nat) = fun _ => 0 := funext fun a => by fin_cases a <;> rfl

/-- The block each window is on at point `t`: the rows' and the product's block number is `t` on the row axis and 0 on
    the column axis; the weight's is (0, 0) throughout. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero zero_offset]
  simp only [View.ld_unit_zero (S := S1024x1024) zero_offset]
  obtain ⟨e0, e1, e2, e3, e4, e5⟩ := block_numbers t
  funext j
  show k0_pay1 (F := Ideal) (iblk m c 0 t) (iblk m c 1 t) j = product m c (((cfg0.win 2).blk t).view.emb j)
  refine (stored_apply (iblk m c 0 t) (iblk m c 1 t) j).trans ?_
  unfold product LibDense.prod
  refine Finset.sum_congr rfl fun k _ => congrArg₂ (· * ·) ?_ ?_
  · show V m c main_v0 (((cfg0.win 0).blk t).view.emb (ix2 (j 0) k)) = V m c main_v0 (ix2 ((((cfg0.win 2).blk t).view.emb j) 0) k)
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · show V m c main_v5 (((cfg0.win 1).blk t).view.emb (ix2 k (j 1))) = V m c main_v5 (ix2 k ((((cfg0.win 2).blk t).view.emb j) 1))
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

/-- An entry of the product array is in point `t`'s block when each coordinate is in the block's range. -/
theorem mem_block (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v6).slice (win0_2.rect t)).set ↔ _
  rw [View.set_slice_whole, Rect.mem_set_unit]
  exact Iff.rfl

/-- Every entry of the product array is written back: row `r` by point `r / 1024`. -/
theorem covered (i : S65536x1024.Idx) :
    ∃ t : Fin cfg0.N, (cfg0.win 2).flush t = true ∧ i ∈ ((cfg0.win 2).blk t).view.set := by
  have hi0 : (i 0).val < 65536 := idx2_lt0 i
  have hi1 : (i 1).val < 1024 := idx2_lt1 i
  have hN : cfg0.N = 64 := N_0
  have ht : (i 0).val / 1024 < cfg0.N := by rw [hN]; omega
  obtain ⟨-, -, -, -, e4, e5⟩ := block_numbers ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4']; omega
  | ⟨1, _⟩ =>
    show win0_2.index ⟨(i 0).val / 1024, ht⟩ (1 : Fin 2) * 1024 ≤ (i 1).val ∧ (i 1).val < win0_2.index ⟨(i 0).val / 1024, ht⟩ (1 : Fin 2) * 1024 + 1024
    rw [e5]; omega

/-- The product array after the region. -/
theorem final (c : Dev nD) : (dats m 0 c).arrAt 2 cfg0.N = product m c :=
  (dats m 0 c).arrAt_eq_of_cover 2 (product m c) (fun t _ => flushed_eq m c t) covered

/-- Entry (b * 4096 + t, j) of the product is the collapsed formula at (b, t, j). -/
theorem product_apply (c : Dev nD) (b : Fin 16) (t : Fin 4096) (j : Fin 1024) (r : Fin 65536) (hr : r.val = b.val * 4096 + t.val) :
    product m c (ix2 r j)
      = collapsed (m ((c : Thread nD τ).loc main_arg0)) (m ((c : Thread nD τ).loc main_arg1)) (Ideal.ofBits .f32 0x3D000000#32) (ix3 b t j) := by
  unfold product LibDense.prod collapsed
  exact Finset.sum_congr rfl fun k _ => congrArg₂ (· * ·) (flat_apply m c b t k r hr) (weight_apply m c (ix2 k j))

/-- The product reshaped to [16, 4096, 1024] is the collapsed formula. -/
theorem reshaped_eq (c : Dev nD) :
    shapeCast S16x4096x1024 (product m c) Facts₀.shapeCasts_S65536x1024_S16x4096x1024
      = collapsed (m ((c : Thread nD τ).loc main_arg0)) (m ((c : Thread nD τ).loc main_arg1)) (Ideal.ofBits .f32 0x3D000000#32) := by
  funext i
  obtain ⟨b, t, j, rfl⟩ : ∃ (b : Fin 16) (t : Fin 4096) (j : Fin 1024), i = ix3 b t j := ⟨i 0, i 1, i 2, eq_ix3 i⟩
  have hlt : b.val * 4096 + t.val < 65536 := by omega
  refine (shapeCast_apply _ _ _ (ix2 ⟨b.val * 4096 + t.val, hlt⟩ j) ?_).trans (product_apply m c b t j _ rfl)
  rw [Shape.rowMajor_val_two, Shape.rowMajor_val_three]
  rfl

/-- The result buffer after the host line that follows the region. -/
theorem result_eq (c : Dev nD) :
    Pipeline.afterTail₀ cfgs (dats m) 0 (V0 m) [hostOps1] c main_v7
      = collapsed (m ((c : Thread nD τ).loc main_arg0)) (m ((c : Thread nD τ).loc main_arg1)) (Ideal.ofBits .f32 0x3D000000#32) := by
  refine Eq.trans ?_ (reshaped_eq m c)
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6) = product m c :=
    (Pipeline.withArrays_arr spec0 launch0.win.arr_inj c _ _ 2).trans (final m c)
  exact funext fun i => congrFun (congrArg (fun X : S65536x1024.Idx → EReal => shapeCast S16x4096x1024 X Facts₀.shapeCasts_S65536x1024_S16x4096x1024) e) i

/-- The kernel's run, read: every weakly fair execution ends with the result at the collapsed formula of the argument
    arrays, and the arguments as they were. -/
theorem run : θ_run defs (onTc (τ := τ) (main (F := Ideal))) ⟨m, fun _ => 0, ρ⟩ fun r => ∀ c : Dev nD,
      r.2.mem ((c.tc : Thread nD τ).loc main_v7)
        = collapsed (m ((c.tc : Thread nD τ).loc main_arg0)) (m ((c.tc : Thread nD τ).loc main_arg1)) (Ideal.ofBits .f32 0x3D000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Collapse

end
-- ==== Proof.lean ====
/-
  The claim. The kernel collapses the reference's two contractions into one: it forms the weight
  `w (k, j) = (∑ u, a (u, k) * a (u, j)) * 0.03125` once on the host and then one matrix product per block of 1024 rows,
  `out (b, t, j) = ∑ k, x (b, t, k) * w (k, j)`; the reference computes
  `out (b, t, j) = ∑ u, ((∑ k, x (b, t, k) * a (u, k)) * (1 / sqrt 1024)) * a (u, j)`.

  On the extended reals the changes of float format are the identity, a matrix product on the vector unit and on the
  host are the same sum, `1 / sqrt 1024` and `0.03125` are both 1/32, and for REAL entries the two formulas are the
  double sum of `x (b, t, k) * a (u, k) * a (u, j) / 32` in its two orders. Moving the factors across the sums is what
  needs the precondition: it makes every entry of `x` and `a` a real number.

  The three frames are the generated ones (the reference's is its generated run with the result dropped); the idealized
  kernel is the kernel's own text read on the extended reals, so there is nothing to preserve.
-/
import proofs.«167783_j32384053412296_2_alg».proof.Defs
import proofs.«167783_j32384053412296_2_alg».proof.Proof.Gen.Kernel
import proofs.«167783_j32384053412296_2_alg».proof.Proof.Gen.Kernel.Skeleton
import proofs.«167783_j32384053412296_2_alg».proof.Proof.Gen.Kernel.Launch
import proofs.«167783_j32384053412296_2_alg».proof.Proof.Gen.Kernel.Points
import proofs.«167783_j32384053412296_2_alg».proof.Proof.Gen.Kernel.Frame
import proofs.«167783_j32384053412296_2_alg».proof.Proof.Gen.KernelIdeal
import proofs.«167783_j32384053412296_2_alg».proof.Proof.Gen.KernelIdeal.Skeleton
import proofs.«167783_j32384053412296_2_alg».proof.Proof.Gen.KernelIdeal.Launch
import proofs.«167783_j32384053412296_2_alg».proof.Proof.Gen.KernelIdeal.Points
import proofs.«167783_j32384053412296_2_alg».proof.Proof.Gen.KernelIdeal.Frame
import proofs.«167783_j32384053412296_2_alg».proof.Proof.Gen.ReferenceIdeal
import proofs.«167783_j32384053412296_2_alg».proof.Proof.Gen.Pre_finite_inputs
import proofs.«167783_j32384053412296_2_alg».proof.Proof.Gen.ReferenceIdeal.Run
import proofs.«167783_j32384053412296_2_alg».proof.Proof.Gen.ReferenceIdeal.Read
import proofs.«167783_j32384053412296_2_alg».proof.Proof.Scale
import proofs.«167783_j32384053412296_2_alg».proof.Proof.Spec
import proofs.«167783_j32384053412296_2_alg».proof.Proof.FiniteInputs
import proofs.«167783_j32384053412296_2_alg».proof.Proof.RefRead
import proofs.«167783_j32384053412296_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the collapsed formula of the kernel's argument arrays: the kernel by its run read back, the
    reference because its two-step formula is the collapsed one on real entries. -/
theorem algebraic : Cert.algebraic_KernelIdeal_ReferenceIdeal := by
  intro m ρ m' ρ' hpre hagree
  refine ⟨fun c => Cert.LabelAttn.collapsed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (Ideal.ofBits .f32 0x3D000000#32),
    Cert.KernelIdeal.Collapse.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v5_eq _ _).trans ?_
  rw [Cert.ReferenceIdeal.TwoStep.result_eq, Cert.LabelAttn.ofBits_inv32]
  obtain ⟨hx, ha⟩ := Cert.LabelAttn.real_of_pre _ _ (hpre c)
  exact (Cert.LabelAttn.collapsed_eq_twoStep _ _ hx ha (1 / 32)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
